-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 37
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S1x4096, .f32⟩
  | .hbm, ⟨35, _⟩ => ⟨S8192x4096, .bf16⟩
  | .hbm, ⟨36, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_6 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v14) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_6 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call4_cst : Ref sig .tc := ⟨.hbm, 37, rfl⟩
abbrev main_call4_v0 : Ref sig .tc := ⟨.hbm, 38, rfl⟩
abbrev main_v16 : Ref sig .tc := ⟨.hbm, 39, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Payload.lean ====
/-
  The body's three payloads read at one element of the [1024, 2048] output block, on the extended reals.

  * the reset value is the zero block;
  * the accumulating step adds to the element (p, q) of what the block held the product of the x-block's row p with
    the w-block's column q, a sum over the 512 contracted positions;
  * the closing step adds the bias row's element q and takes the maximum with zero.
-/
import proofs.«119785_j42726334660724_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The block product's dimension numbers: rows × contraction times contraction × columns. -/
abbrev D := dot_S1024x512_S512x2048_S1024x2048_1_0_0_1_n_n

theorem lhs_row (i : S1024x2048.Idx) (q : D.contr.Idx) : (D.lhsIdx i q 0).val = (i 0).val := by
  unfold DotDims.lhsIdx
  rw [dif_neg (show ¬(0 : Fin S1024x512.rank) ∈ D.lhsBatch by decide),
    dif_pos (show (0 : Fin S1024x512.rank) ∈ D.lhsNonContracting by decide)]
  rfl

theorem lhs_contr (i : S1024x2048.Idx) (q : D.contr.Idx) : (D.lhsIdx i q 1).val = (q ⟨0, by decide⟩).val :=
  D.lhsIdx_val_of_single rfl i q

theorem rhs_contr (i : S1024x2048.Idx) (q : D.contr.Idx) : (D.rhsIdx i q 0).val = (q ⟨0, by decide⟩).val :=
  D.rhsIdx_val_of_single rfl i q

theorem rhs_col (i : S1024x2048.Idx) (q : D.contr.Idx) : (D.rhsIdx i q 1).val = (i 1).val := by
  unfold DotDims.rhsIdx
  rw [dif_neg (show ¬(1 : Fin S512x2048.rank) ∈ D.rhsBatch by decide),
    dif_pos (show (1 : Fin S512x2048.rank) ∈ D.rhsNonContracting by decide)]
  rfl

/-- The matrix unit's product of two blocks into the zero block, at (p, q): the row-by-column sum. -/
theorem matmul_zero_apply (x : FVec Ideal S1024x512 .bf16) (w : FVec Ideal S512x2048 .bf16) (p : Fin 1024) (q : Fin 2048) :
    (matmul (F := Ideal) D none x w (constant S1024x2048 .f32 0x00000000#32) (ix2 p q) : EReal)
      = ∑ k : Fin 512, (x (ix2 p k) : EReal) * (w (ix2 k q) : EReal) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 512 rfl rfl).symm k) = ix2 k q := funext fun a => Fin.ext (by
    match a with
    | ⟨0, _⟩ => exact (rhs_contr _ _).trans hk
    | ⟨1, _⟩ => exact rhs_col _ _)
  rw [el, er]

/-- The reset value: zero everywhere. -/
theorem reset_apply (j : S1024x2048.Idx) : (k0_pay1 (F := Ideal) j : EReal) = 0 := by
  show Ideal.ofBits .f32 0x00000000#32 = 0
  exact Ideal.ofBits_zero_f32

/-- The accumulating step at (p, q). -/
theorem step_apply (acc : FVec Ideal S1024x2048 .f32) (x : FVec Ideal S1024x512 .bf16) (w : FVec Ideal S512x2048 .bf16)
    (p : Fin 1024) (q : Fin 2048) :
    (k0_pay2 (F := Ideal) acc x w (ix2 p q) : EReal)
      = (acc (ix2 p q) : EReal) + ∑ k : Fin 512, (x (ix2 p k) : EReal) * (w (ix2 k q) : EReal) := by
  unfold k0_pay2
  simp only [shapeCast_self]
  exact congrArg ((acc (ix2 p q) : EReal) + ·) (matmul_zero_apply x w p q)

/-- The closing step at (p, q): add the bias row's element q, then clamp below at zero. -/
theorem close_apply (acc : FVec Ideal S1024x2048 .f32) (b : FVec Ideal S1x2048 .f32) (p : Fin 1024) (q : Fin 2048) :
    (k0_pay3 (F := Ideal) acc b (ix2 p q) : EReal) = max ((acc (ix2 p q) : EReal) + (b (ix2 (0 : Fin 1) q) : EReal)) 0 := by
  unfold k0_pay3
  simp only [shapeCast_self]
  show max ((acc (ix2 p q) : EReal) + broadcastTo S1024x2048 b broadcasts_S1x2048_S1024x2048 (ix2 p q)) (Ideal.ofBits .f32 0x00000000#32) = _
  rw [Ideal.ofBits_zero_f32, broadcastTo_apply b broadcasts_S1x2048_S1024x2048 (ix2 p q) (ix2 (0 : Fin 1) q) (fun a => by
    match a with
    | ⟨0, _⟩ => show (0 : Nat) = if (1 : Nat) = 1 then 0 else p.val; rw [if_pos rfl]
    | ⟨1, _⟩ => show q.val = if (2048 : Nat) = 1 then 0 else q.val; rw [if_neg (by decide)])]

end Cert.KernelIdeal.Pay

end
-- ==== Proof.FoldStep.lean ====
/-
  One output tile's run of eight grid points, read at one place (p, q) of the [1024, 2048] output block.

  The run starts from the zero block plus the first contraction tile's product, adds one contraction tile's product at
  each of the next six points, and at the eighth point adds the last product, then the bias row's element, and clamps below
  at zero. So after the run the place holds  max ((Σ over the eight points of that point's product at (p, q)) + bias q, 0),
  where a point's product at (p, q) is the sum over the 512 positions of its contraction tile of x-block[p, k] · w-block[k, q].
-/
import proofs.«119785_j42726334660724_2_alg».proof.Proof.Gen.KernelIdeal.Value
import proofs.«119785_j42726334660724_2_alg».proof.Proof.Payload

noncomputable section

namespace Cert.KernelIdeal.Fold

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- The x-window's and the w-window's blocks at point `n`, and the bias window's. -/
abbrev xblk (n : ℕ) (h : n < cfg0.N) : FVec Ideal S1024x512 .bf16 := iblk m c 0 ⟨n, h⟩
abbrev wblk (n : ℕ) (h : n < cfg0.N) : FVec Ideal S512x2048 .bf16 := iblk m c 1 ⟨n, h⟩
abbrev bblk (n : ℕ) (h : n < cfg0.N) : FVec Ideal S1x2048 .f32 := iblk m c 2 ⟨n, h⟩

/-- Point `n`'s product at a place of the output block (zero past the grid, where it is never used). -/
def addend (n : ℕ) (loc : S1024x2048.Idx) : EReal :=
  if h : n < cfg0.N then ∑ k : Fin 512, (xblk m c n h (ix2 (loc 0) k) : EReal) * (wblk m c n h (ix2 k (loc 1)) : EReal) else 0

theorem addend_of_lt (n : ℕ) (h : n < cfg0.N) (p : Fin 1024) (q : Fin 2048) :
    addend m c n (ix2 p q) = ∑ k : Fin 512, (xblk m c n h (ix2 p k) : EReal) * (wblk m c n h (ix2 k q) : EReal) := by
  unfold addend
  rw [dif_pos h]

/-- A point in the middle of a run accumulates. -/
theorem step_mid (n : ℕ) (h : n < cfg0.N) (h0 : ¬n % 8 = 0) (h7 : ¬n % 8 = 7) (acc : Vec Ideal S1024x2048 .f32) :
    Value.step3 m c n h acc = k0_pay2 acc (xblk m c n h) (wblk m c n h) := by
  unfold Value.step3
  rw [if_pos ⟨h0, h7⟩]

/-- The last point of a run accumulates and closes. -/
theorem step_last (n : ℕ) (h : n < cfg0.N) (h7 : n % 8 = 7) (acc : Vec Ideal S1024x2048 .f32) :
    Value.step3 m c n h acc = k0_pay3 (k0_pay2 acc (xblk m c n h) (wblk m c n h)) (bblk m c n h) := by
  unfold Value.step3
  rw [if_neg (by omega), if_pos ⟨by omega, h7⟩]

/-- The first point of a run: zero plus its product. -/
theorem reset_apply (b : ℕ) (h : b < cfg0.N) (i : S1024x2048.Idx) :
    (Value.reset3 m c b h i : EReal) = 0 + addend m c b i := by
  obtain ⟨p, q, rfl⟩ : ∃ (p : Fin 1024) (q : Fin 2048), i = ix2 p q := ⟨i 0, i 1, eq_ix2 i⟩
  rw [addend_of_lt m c b h p q]
  refine (Pay.step_apply (k0_pay1 (F := Ideal)) (xblk m c b h) (wblk m c b h) p q).trans ?_
  rw [Pay.reset_apply]

/-- A middle point adds its product. -/
theorem step_mid_apply (n : ℕ) (h : n < cfg0.N) (h0 : ¬n % 8 = 0) (h7 : ¬n % 8 = 7) (acc : S1024x2048.Idx → EReal)
    (i : S1024x2048.Idx) : (Value.step3 m c n h acc i : EReal) = acc i + addend m c n i := by
  obtain ⟨p, q, rfl⟩ : ∃ (p : Fin 1024) (q : Fin 2048), i = ix2 p q := ⟨i 0, i 1, eq_ix2 i⟩
  rw [addend_of_lt m c n h p q, step_mid m c n h h0 h7 acc]
  exact Pay.step_apply acc (xblk m c n h) (wblk m c n h) p q

/-- The whole run from a point `b` ≡ 0 (mod 8), at (p, q). -/
theorem fold_apply (b : ℕ) (hb : b % 8 = 0) (h : b + 7 < cfg0.N) (p : Fin 1024) (q : Fin 2048) :
    (Pipeline.accAt (Value.reset3 m c) (Value.step3 m c) b 7 h (ix2 p q) : EReal)
      = max ((∑ s ∈ Finset.range 8, addend m c (b + s) (ix2 p q)) + (bblk m c (b + 7) h (ix2 (0 : Fin 1) q) : EReal)) 0 := by
  have h6 := Pipeline.accAt_add_apply (ι := S1024x2048.Idx) (β := EReal) (Value.reset3 m c) (Value.step3 m c)
    (fun _ => (0 : EReal)) (addend m c) b 6
    (fun hb' i => reset_apply m c b hb' i)
    (fun n hn acc i h1 h2 => step_mid_apply m c n hn (by omega) (by omega) acc i)
    6 le_rfl (Nat.lt_of_succ_lt h) (ix2 p q)
  rw [Pipeline.accAt_succ, step_last m c (b + (6 + 1)) h (by omega)]
  refine (Pay.close_apply _ (bblk m c (b + (6 + 1)) h) p q).trans ?_
  refine congrArg (fun z : EReal => max (z + (bblk m c (b + 7) h (ix2 (0 : Fin 1) q) : EReal)) 0) ?_
  refine (Pay.step_apply _ (xblk m c (b + (6 + 1)) h) (wblk m c (b + (6 + 1)) h) p q).trans ?_
  rw [h6, zero_add, Finset.sum_range_succ _ 7, addend_of_lt m c (b + 7) h p q]

end Cert.KernelIdeal.Fold

end
-- ==== Proof.Blocks.lean ====
/-
  Where the three input windows' blocks sit in their arrays. The grid is 8 × 2 × 8, walked row-major, so point t is
  (row tile, column tile, contraction tile) = (t / 16, t / 8 % 2, t % 8). At that point the x-window's block is rows
  1024·(t/16)… and columns 512·(t%8)… of its array, the w-window's block rows 512·(t%8)… and columns 2048·(t/8%2)…, and the
  bias window's block the one row's columns 2048·(t/8%2)….
-/
import proofs.«119785_j42726334660724_2_alg».proof.Proof.Gen.KernelIdeal.Frame

noncomputable section

namespace Cert.KernelIdeal.Blocks

open Cert.KernelIdeal Cert.KernelIdeal.Gen Idealize.ShloMosaic Idealize.ShloMosaic.TcCoe Idealize.SL.Sem

variable {F : FTy → Type} [FloatOps F]

/-- The printed index maps at each of the 128 points, decided over the grid. -/
theorem idx_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2 :=
  (by decide +kernel : ∀ t : Fin grid0.N, _)

/-- The x-window's block at point `t`, read off any contents `A` of its array: element `y` of the block is the array's
    element at row 1024·(t/16) + y₀, column 512·(t%8) + y₁. -/
theorem read_x (c : Dev nD) (A : Buf (Elt F) ((c : Thread nD τ).loc main_v14)) (t : Fin cfg0.N) (y : S1024x512.Idx)
    (j : S8192x4096.Idx) (h0 : (j 0).val = 1024 * (t.val / 16) + (y 0).val) (h1 : (j 1).val = 512 * (t.val % 8) + (y 1).val) :
    ((cfg0.win 0).blk t).view.read (Elt F) A y = A j := by
  obtain ⟨e0, e1, -⟩ := idx_facts t
  show A (((cfg0.win 0).blk t).view.emb y) = A j
  refine congrArg A (funext fun a => Fin.ext ?_)
  match a with
  | ⟨0, _⟩ => show win0_0.index t (0 : Fin 2) * 1024 + 1 * (y 0).val = (j 0).val; rw [e0, h0]; omega
  | ⟨1, _⟩ => show win0_0.index t (1 : Fin 2) * 512 + 1 * (y 1).val = (j 1).val; rw [e1, h1]; omega

/-- The w-window's block at point `t`: element `y` is the array's element at row 512·(t%8) + y₀, column 2048·(t/8%2) + y₁. -/
theorem read_w (c : Dev nD) (A : Buf (Elt F) ((c : Thread nD τ).loc main_v6)) (t : Fin cfg0.N) (y : S512x2048.Idx)
    (j : S4096x4096.Idx) (h0 : (j 0).val = 512 * (t.val % 8) + (y 0).val) (h1 : (j 1).val = 2048 * (t.val / 8 % 2) + (y 1).val) :
    ((cfg0.win 1).blk t).view.read (Elt F) A y = A j := by
  obtain ⟨-, -, e0, e1, -⟩ := idx_facts t
  show A (((cfg0.win 1).blk t).view.emb y) = A j
  refine congrArg A (funext fun a => Fin.ext ?_)
  match a with
  | ⟨0, _⟩ => show win0_1.index t (0 : Fin 2) * 512 + 1 * (y 0).val = (j 0).val; rw [e0, h0]; omega
  | ⟨1, _⟩ => show win0_1.index t (1 : Fin 2) * 2048 + 1 * (y 1).val = (j 1).val; rw [e1, h1]; omega

/-- The bias window's block at point `t`: element `y` is the one row's element at column 2048·(t/8%2) + y₁. -/
theorem read_b (c : Dev nD) (A : Buf (Elt F) ((c : Thread nD τ).loc main_v13)) (t : Fin cfg0.N) (y : S1x2048.Idx)
    (j : S1x4096.Idx) (h1 : (j 1).val = 2048 * (t.val / 8 % 2) + (y 1).val) :
    ((cfg0.win 2).blk t).view.read (Elt F) A y = A j := by
  obtain ⟨-, -, -, -, e0, e1⟩ := idx_facts t
  have hy0 : (y 0).val < 1 := (y 0).isLt
  have hj0 : (j 0).val < 1 := (j 0).isLt
  show A (((cfg0.win 2).blk t).view.emb y) = A j
  refine congrArg A (funext fun a => Fin.ext ?_)
  match a with
  | ⟨0, _⟩ => show win0_2.index t (0 : Fin 2) * 1 + 1 * (y 0).val = (j 0).val; rw [e0]; omega
  | ⟨1, _⟩ => show win0_2.index t (1 : Fin 2) * 2048 + 1 * (y 1).val = (j 1).val; rw [e1, h1]; omega

end Cert.KernelIdeal.Blocks

end
-- ==== Proof.HostSide.lean ====
/-
  What the kernel's program has computed on the host when the pallas_call starts, as functions of the three arguments:
  the array the x-window stages is x with its format changed; the array the w-window stages is the weight clipped to
  [-1, 1], scaled by 127, rounded to the nearest even integer and divided by 127, then its format changed; the array the
  bias window stages is the bias treated the same way (without the format change) and viewed as one row.
-/
import proofs.«119785_j42726334660724_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- The weight, quantized: clip to [-1, 1], times 127, round to nearest even, divided by 127. -/
def quantW (W : FVec F S4096x4096 .f32) : FVec F S4096x4096 .f32 :=
  Host.divf (Host.roundeven (mulf
      (minimumf (broadcastInDim S4096x4096 ![] bcast_S_S4096x4096 (id (constant S_ .f32 0x3F800000#32)))
        (maximumf (broadcastInDim S4096x4096 ![] bcast_S_S4096x4096 (id (constant S_ .f32 0xBF800000#32))) W))
      (broadcastInDim S4096x4096 ![] bcast_S_S4096x4096 (constant S_ .f32 0x42FE0000#32))))
    (broadcastInDim S4096x4096 ![] bcast_S_S4096x4096 (constant S_ .f32 0x42FE0000#32))

/-- The bias, quantized the same way. -/
def quantB (B : FVec F S4096 .f32) : FVec F S4096 .f32 :=
  Host.divf (Host.roundeven (mulf
      (minimumf (broadcastInDim S4096 ![] bcast_S_S4096 (id (constant S_ .f32 0x3F800000#32)))
        (maximumf (broadcastInDim S4096 ![] bcast_S_S4096 (id (constant S_ .f32 0xBF800000#32))) B))
      (broadcastInDim S4096 ![] bcast_S_S4096 (constant S_ .f32 0x42FE0000#32))))
    (broadcastInDim S4096 ![] bcast_S_S4096 (constant S_ .f32 0x42FE0000#32))

variable (m : (ℓ : Loc nD τ sig) → Buf (Elt F) ℓ)

/-- The x-window's array. -/
theorem V_x (c : Dev nD) :
    (V m c main_v14 : S8192x4096.Idx → F .bf16) = truncf .bf16 (m ((c : Thread nD τ).loc main_arg0)) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results <;> rfl

/-- The w-window's array. -/
theorem V_w (c : Dev nD) :
    (V m c main_v6 : S4096x4096.Idx → F .bf16) = truncf .bf16 (quantW (m ((c : Thread nD τ).loc main_arg1))) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results <;> rfl

/-- The bias window's array: the quantized bias as the one row of a [1, 4096] array. -/
theorem V_b (c : Dev nD) :
    (V m c main_v13 : S1x4096.Idx → F .f32) = shapeCast S1x4096 (quantB (m ((c : Thread nD τ).loc main_arg2))) shapeCasts_S4096_S1x4096 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results <;> rfl

end Cert.KernelIdeal.HostSide

end
-- ==== Proof.LibBlockSum.lean ====
/-
  A sum over a contraction axis cut into equal blocks: adding up, block after block, the sum over each block's positions
  gives the sum over the whole axis. Only commutativity and associativity of addition are used, so it holds in any
  commutative additive monoid — the extended reals included, infinities and all.
-/
import Mathlib.Algebra.BigOperators.Fin
import Mathlib.Algebra.BigOperators.Intervals

open scoped BigOperators

namespace LibBlockSum

/-- `a` consecutive blocks of `b` positions each make up the first `a * b` positions. -/
theorem sum_range_blocks {M : Type*} [AddCommMonoid M] (f : ℕ → M) (b : ℕ) :
    ∀ a : ℕ, ∑ s ∈ Finset.range a, ∑ j ∈ Finset.range b, f (b * s + j) = ∑ k ∈ Finset.range (a * b), f k
  | 0 => by simp
  | a + 1 => by
    rw [Finset.sum_range_succ, sum_range_blocks f b a, Nat.succ_mul, Finset.sum_range_add, Nat.mul_comm b a]

/-- The same with each block and the whole axis indexed by `Fin`. -/
theorem sum_blocks {M : Type*} [AddCommMonoid M] (f : ℕ → M) (a b : ℕ) :
    ∑ s ∈ Finset.range a, ∑ j : Fin b, f (b * s + j.val) = ∑ k : Fin (a * b), f k.val := by
  rw [Fin.sum_univ_eq_sum_range (fun k => f k) (a * b), ← sum_range_blocks f b a]
  exact Finset.sum_congr rfl fun s _ => Fin.sum_univ_eq_sum_range (fun j => f (b * s + j)) b

end LibBlockSum
-- ==== Proof.Spec.lean ====
/-
  The function both programs compute, on the extended reals: a dense layer with a clamp below at zero. Given the input
  `X` [8192, 4096], a weight `W` [4096, 4096] and a bias `B` [4096] (the quantized ones, in both programs), the
  element (r, c) of the result is  max (Σₖ X[r, k] · W[k, c] + B[c], 0).
-/
import Idealize.ShloMosaic.Lib.ValueIdx
import Idealize.ShloMosaic.PureOps.Ideal

noncomputable section

open Idealize.ShloMosaic Idealize.ShloMosaic.ValueIdx
open scoped BigOperators

namespace DenseSpec

/-- `max (Σₖ X[r, k] · W[k, c] + B[c], 0)` at (r, c). -/
def dense (X : (⟨2, ![8192, 4096]⟩ : Shape).Idx → EReal) (W : (⟨2, ![4096, 4096]⟩ : Shape).Idx → EReal)
    (B : (⟨1, ![4096]⟩ : Shape).Idx → EReal) : (⟨2, ![8192, 4096]⟩ : Shape).Idx → EReal :=
  fun i => max ((∑ k : Fin 4096, X (ix2 (i 0) k) * W (ix2 k (i 1))) + B (ix1 (i 1))) 0

end DenseSpec

end
-- ==== Proof.KernelValue.lean ====
/-
  What the kernel leaves in its result array, as one function of the three arguments.

  The flushing blocks tile the [8192, 4096] result: element (r, c) lies in the output tile (r / 1024, c / 2048), at place
  (r % 1024, c % 2048), and that tile's run is the eight grid points 8·(2·(r/1024) + c/2048) + s, s = 0 … 7. Point s of the
  run stages columns 512·s … of x's rows and rows 512·s … of the quantized weight, so its product at the place is
  Σ_{k < 512} x[r, 512·s + k] · wq[512·s + k, c]; the eight of them add up to the whole row-by-column sum over the 4096
  contracted positions (addition of extended reals is commutative and associative — nothing else is used), and the
  closing step adds bq[c] and clamps below at zero.
-/
import proofs.«119785_j42726334660724_2_alg».proof.Proof.FoldStep
import proofs.«119785_j42726334660724_2_alg».proof.Proof.Blocks
import proofs.«119785_j42726334660724_2_alg».proof.Proof.HostSide
import proofs.«119785_j42726334660724_2_alg».proof.Proof.LibBlockSum
import proofs.«119785_j42726334660724_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- The input, the quantized weight and the quantized bias, as arrays of extended reals. -/
abbrev X : S8192x4096.Idx → EReal := m ((c : Thread nD τ).loc main_arg0)
abbrev Wq : S4096x4096.Idx → EReal := HostSide.quantW (F := Ideal) (m ((c : Thread nD τ).loc main_arg1))
abbrev Bq : S4096.Idx → EReal := HostSide.quantB (F := Ideal) (m ((c : Thread nD τ).loc main_arg2))

/-- An element of the x-window's block at point `n` is an element of x (the format change is the identity). -/
theorem xblk_apply (n : ℕ) (h : n < cfg0.N) (p : Fin 1024) (k : Fin 512) (r : Fin 8192) (κ : Fin 4096)
    (h0 : r.val = 1024 * (n / 16) + p.val) (h1 : κ.val = 512 * (n % 8) + k.val) :
    (Fold.xblk m c n h (ix2 p k) : EReal) = X m c (ix2 r κ) := by
  refine (Blocks.read_x c (V m c (Pipeline.arrRef spec0 0)) ⟨n, h⟩ (ix2 p k) (ix2 r κ) h0 h1).trans ?_
  show (V m c main_v14 : S8192x4096.Idx → Ideal .bf16) (ix2 r κ) = _
  rw [HostSide.V_x]
  rfl

/-- An element of the w-window's block at point `n` is an element of the quantized weight. -/
theorem wblk_apply (n : ℕ) (h : n < cfg0.N) (k : Fin 512) (q : Fin 2048) (κ : Fin 4096) (col : Fin 4096)
    (h0 : κ.val = 512 * (n % 8) + k.val) (h1 : col.val = 2048 * (n / 8 % 2) + q.val) :
    (Fold.wblk m c n h (ix2 k q) : EReal) = Wq m c (ix2 κ col) := by
  refine (Blocks.read_w c (V m c (Pipeline.arrRef spec0 1)) ⟨n, h⟩ (ix2 k q) (ix2 κ col) h0 h1).trans ?_
  show (V m c main_v6 : S4096x4096.Idx → Ideal .bf16) (ix2 κ col) = _
  rw [HostSide.V_w]
  rfl

/-- An element of the bias window's block at point `n` is an element of the quantized bias (the one row of its array). -/
theorem bblk_apply (n : ℕ) (h : n < cfg0.N) (q : Fin 2048) (col : Fin 4096)
    (h1 : col.val = 2048 * (n / 8 % 2) + q.val) :
    (Fold.bblk m c n h (ix2 (0 : Fin 1) q) : EReal) = Bq m c (ix1 col) := by
  refine (Blocks.read_b c (V m c (Pipeline.arrRef spec0 2)) ⟨n, h⟩ (ix2 (0 : Fin 1) q) (ix2 (0 : Fin 1) col) h1).trans ?_
  show (V m c main_v13 : S1x4096.Idx → Ideal .f32) (ix2 (0 : Fin 1) col) = _
  rw [HostSide.V_b]
  refine (shapeCast_addUnit_apply ![4096] _ _ _).trans ?_
  exact congrArg _ (funext fun a => match a with | ⟨0, _⟩ => rfl)

/-- The result array after the kernel's run. -/
theorem G3_eq : Value.G3 m c = DenseSpec.dense (X m c) (Wq m c) (Bq m c) := by
  funext i
  have hi0 : (i 0).val < 8192 := (i 0).isLt
  have hi1 : (i 1).val < 4096 := (i 1).isLt
  have hN : cfg0.N = 128 := N_0
  have hr : Value.run3Of i = 2 * ((i 0).val / 1024) + (i 1).val / 2048 := by
    show 2 * ((i 0).val / 1024 - 0) + 1 * ((i 1).val / 2048 - 0) = _
    omega
  have hlt : 8 * Value.run3Of i + 7 < cfg0.N := by rw [hr, hN]; omega
  have hloc : Value.loc3Of i = ix2 (⟨(i 0).val % 1024, Nat.mod_lt _ (by decide)⟩ : Fin 1024)
      (⟨(i 1).val % 2048, Nat.mod_lt _ (by decide)⟩ : Fin 2048) :=
    funext fun a => match a with | ⟨0, _⟩ => rfl | ⟨1, _⟩ => rfl
  unfold Value.G3
  rw [dif_pos hlt, hloc, Fold.fold_apply m c _ (by omega) hlt]
  generalize Value.run3Of i = R at hr hlt
  -- the eight products are the whole row-by-column sum
  let f : ℕ → EReal := fun κ => if hκ : κ < 4096 then X m c (ix2 (i 0) ⟨κ, hκ⟩) * Wq m c (ix2 ⟨κ, hκ⟩ (i 1)) else 0
  have hstep : ∀ s ∈ Finset.range 8,
      Fold.addend m c (8 * R + s) (ix2 (⟨(i 0).val % 1024, Nat.mod_lt _ (by decide)⟩ : Fin 1024)
        (⟨(i 1).val % 2048, Nat.mod_lt _ (by decide)⟩ : Fin 2048)) = ∑ k : Fin 512, f (512 * s + k.val) := by
    intro s hs
    have hs8 : s < 8 := Finset.mem_range.mp hs
    have hn : 8 * R + s < cfg0.N := by rw [hN]; omega
    rw [Fold.addend_of_lt m c _ hn]
    refine Finset.sum_congr rfl fun k _ => ?_
    have hk : 512 * s + k.val < 4096 := by have := k.isLt; omega
    show _ = (if hκ : 512 * s + k.val < 4096 then X m c (ix2 (i 0) ⟨512 * s + k.val, hκ⟩) * Wq m c (ix2 ⟨512 * s + k.val, hκ⟩ (i 1)) else 0)
    rw [dif_pos hk,
      xblk_apply m c _ hn _ k (i 0) ⟨512 * s + k.val, hk⟩ (by show (i 0).val = 1024 * ((8 * R + s) / 16) + (i 0).val % 1024; omega)
        (by show 512 * s + k.val = 512 * ((8 * R + s) % 8) + k.val; omega),
      wblk_apply m c _ hn k _ ⟨512 * s + k.val, hk⟩ (i 1) (by show 512 * s + k.val = 512 * ((8 * R + s) % 8) + k.val; omega)
        (by show (i 1).val = 2048 * ((8 * R + s) / 8 % 2) + (i 1).val % 2048; omega)]
  have hsum : (∑ s ∈ Finset.range 8, Fold.addend m c (8 * R + s) (ix2 (⟨(i 0).val % 1024, Nat.mod_lt _ (by decide)⟩ : Fin 1024)
        (⟨(i 1).val % 2048, Nat.mod_lt _ (by decide)⟩ : Fin 2048)))
      = ∑ k : Fin 4096, X m c (ix2 (i 0) k) * Wq m c (ix2 k (i 1)) := by
    rw [Finset.sum_congr rfl hstep, LibBlockSum.sum_blocks f 8 512]
    show ∑ k : Fin 4096, f k.val = _
    refine Finset.sum_congr rfl fun k _ => ?_
    show (if hκ : k.val < 4096 then X m c (ix2 (i 0) ⟨k.val, hκ⟩) * Wq m c (ix2 ⟨k.val, hκ⟩ (i 1)) else 0) = _
    rw [dif_pos k.isLt]
  rw [hsum, bblk_apply m c _ hlt _ (i 1) (by show (i 1).val = 2048 * ((8 * R + 7) / 8 % 2) + (i 1).val % 2048; omega)]
  rfl

end Cert.KernelIdeal.KernelValue

end
-- ==== Proof.RefSide.lean ====
/-
  The reference, read element by element on the extended reals: its result at (r, c) is
  max (Σₖ x[r, k] · wq[k, c] + bq[c], 0), with `wq` and `bq` the reference's own quantized weight and bias — the
  `dot_general` as the row-by-column sum, the bias broadcast along the rows, the clamp as a maximum with the zero array.
-/
import proofs.«119785_j42726334660724_2_alg».proof.Proof.Gen.ReferenceIdeal.Read
import proofs.«119785_j42726334660724_2_alg».proof.Proof.Spec

noncomputable section

namespace Cert.ReferenceIdeal.RefSide

open Cert.ReferenceIdeal Cert.ReferenceIdeal.Gen Cert.ReferenceIdeal.Read Idealize.ShloMosaic
open Idealize.ShloMosaic.ValueIdx
open scoped BigOperators

/-- The reference's result is the dense layer of x, its quantized weight and its quantized bias. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v16 (F := Ideal) x0 x1 x2 = DenseSpec.dense x0 (val_main_v5 (F := Ideal) x1) (val_main_v11 (F := Ideal) x2) := by
  funext i
  have el : ∀ k : Fin 4096, lidx_main_v12 i k = ix2 (i 0) k := fun k =>
    funext fun a => match a with | ⟨0, _⟩ => rfl | ⟨1, _⟩ => rfl
  have er : ∀ k : Fin 4096, ridx_main_v12 i k = ix2 k (i 1) := fun k =>
    funext fun a => match a with | ⟨0, _⟩ => rfl | ⟨1, _⟩ => rfl
  have eb : idx_main_v13 (idx_main_v14 i) = ix1 (i 1) := funext fun a => match a with | ⟨0, _⟩ => rfl
  rw [val_main_v16_apply, val_main_v15_apply, val_main_v12_apply, val_main_v14_apply, val_main_v13_apply, eb,
    val_main_call4_v0_apply, val_main_call4_cst_apply]
  simp only [el, er]
  show max (_ + _) (Ideal.ofBits .f32 0x00000000#32) = _
  rw [Ideal.ofBits_zero_f32]
  rfl

end Cert.ReferenceIdeal.RefSide

end
-- ==== Proof.lean ====
/-
  A dense layer with quantized parameters and a clamp below at zero, out = max (x · Q(w) + Q(b), 0) over
  x [8192, 4096], w [4096, 4096], b [4096], where Q clips to [-1, 1], scales by 127, rounds to the nearest even integer
  and divides by 127.

  The kernel quantizes w and b on the host, then computes the product tile by tile on an 8 × 2 × 8 grid: each
  [1024, 2048] output tile is zeroed at its first contraction tile, accumulates the product of a [1024, 512] block of x
  with a [512, 2048] block of Q(w) at each of its eight contraction tiles, and at the last adds its slice of Q(b) and
  clamps. The reference is one 4096-deep product, a broadcast sum and a maximum.

  On the extended reals a change of float format is the identity, so both programs apply Q to the same numbers with the
  same operations (the two quantized arrays are one term), and the eight partial row-by-column sums of 512 terms add up to
  the one sum of 4096 terms: addition of extended reals is commutative and associative, and nothing more is needed — no
  finiteness of the inputs is used. So both result arrays are  max (Σₖ x[r, k] · Q(w)[k, c] + Q(b)[c], 0)  at every (r, c).

  Each program's frame (it terminates, faults nowhere and leaves its arguments as they were) is its value run with the
  result forgotten; the idealization rewrote no operation, so that conjunct is trivial.
-/
import proofs.«119785_j42726334660724_2_alg».proof.Defs
import proofs.«119785_j42726334660724_2_alg».proof.Proof.Gen.Kernel.Frame
import proofs.«119785_j42726334660724_2_alg».proof.Proof.Gen.KernelIdeal.Value
import proofs.«119785_j42726334660724_2_alg».proof.Proof.Gen.Pre_finite_inputs
import proofs.«119785_j42726334660724_2_alg».proof.Proof.Gen.ReferenceIdeal.Run
import proofs.«119785_j42726334660724_2_alg».proof.Proof.KernelValue
import proofs.«119785_j42726334660724_2_alg».proof.Proof.RefSide
import Idealize.ShloMosaic.Adequacy
import Idealize.ShloMosaic.Init

noncomputable section

namespace Cert.Proof

open Idealize.ShloMosaic Idealize.SL.Sem

/-- The kernel's quantized weight and the reference's are one term: the same clip, scale, round and division. -/
theorem quantW_same (W : FVec Ideal Cert.KernelIdeal.S4096x4096 .f32) :
    Cert.KernelIdeal.HostSide.quantW (F := Ideal) W = Cert.ReferenceIdeal.Read.val_main_v5 (F := Ideal) W := rfl

/-- Likewise the two quantized biases. -/
theorem quantB_same (B : FVec Ideal Cert.KernelIdeal.S4096 .f32) :
    Cert.KernelIdeal.HostSide.quantB (F := Ideal) B = Cert.ReferenceIdeal.Read.val_main_v11 (F := Ideal) B := rfl

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with the dense layer of arguments that agree. -/
theorem algebraic_KernelIdeal_ReferenceIdeal : algebraic_KernelIdeal_ReferenceIdeal := by
  intro m ρ m' ρ' _ hagree
  refine ⟨fun c => DenseSpec.dense (Cert.KernelIdeal.KernelValue.X m c) (Cert.KernelIdeal.KernelValue.Wq m c)
    (Cert.KernelIdeal.KernelValue.Bq m c), ?_, ?_⟩
  · exact (θ_run Cert.KernelIdeal.defs _ _).mono
      (fun _ h c => ⟨(h c).1.trans (Cert.KernelIdeal.KernelValue.G3_eq m c), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefSide.result_eq, (hagree c).1, (hagree c).2.1,
      (hagree c).2.2, ← quantW_same, ← quantB_same]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
